-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x1024 : Shape := ⟨2, ![4096, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x4096x1024 .f32) (main_arg1 : FVec F S4096x1024 .f32) (main_arg2 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4x4096x1024 : Shape := ⟨3, ![4, 4096, 1024]⟩
abbrev S4096x1024 : Shape := ⟨2, ![4096, 1024]⟩
abbrev S1024 : Shape := ⟨1, ![1024]⟩
abbrev S16384x1024 : Shape := ⟨2, ![16384, 1024]⟩
abbrev S_ : Shape := ⟨0, ![]⟩
abbrev S1x1 : Shape := ⟨2, ![1, 1]⟩
abbrev S1x1024 : Shape := ⟨2, ![1, 1024]⟩
abbrev S16384x4096 : Shape := ⟨2, ![16384, 4096]⟩
abbrev S1024x1024 : Shape := ⟨2, ![1024, 1024]⟩
abbrev S1024x1 : Shape := ⟨2, ![1024, 1]⟩
abbrev S4x4096x4096 : Shape := ⟨3, ![4, 4096, 4096]⟩

abbrev nBuf : Space → Nat
  | .hbm => 25
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S1024, .f32⟩
  | .hbm, ⟨3, _⟩ => ⟨S16384x1024, .f32⟩
  | .hbm, ⟨4, _⟩ => ⟨S4096x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .i1⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1x1, .f32⟩
  | .hbm, ⟨22, _⟩ => ⟨S1x1024, .f32⟩
  | .hbm, ⟨23, _⟩ => ⟨S16384x4096, .f32⟩
  | .hbm, ⟨24, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1, .f32⟩
  | .local _ .vmem, ⟨6, _⟩ => ⟨S1024x1024, .f32⟩
  | .local _ .vmem, ⟨7, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x4096x1024_S16384x1024 : S4x4096x1024.ShapeCasts S16384x1024
  reducesTo_S4096x1024_S_d0_1 : S4096x1024.ReducesTo [0, 1] S_
  h_S_ : 0 < S_.numel
  bcast_S_S4096x1024 : S_.BroadcastsInDim S4096x1024 (![] : Fin 0 → Fin S4096x1024.rank)
  bitsLt_bf16_f32 : FTy.bits .bf16 < FTy.bits .f32
  shapeCasts_S_S1x1 : S_.ShapeCasts S1x1
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1024 : S1x1.Broadcasts S1024x1024
  shapeCasts_S16384x4096_S4x4096x4096 : S16384x4096.ShapeCasts S4x4096x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x4096.size a
  hwx0_4 : ∀ i : grid0.Coords, EltTy.bits .f32 = 32 ∨ (Rect.block (s := S16384x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4096x1024 : Shape := ⟨2, ![4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S1024, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4096x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .i1⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4x4096x4096, .f32⟩
  | .hbm, ⟨61, _⟩ => ⟨S4x4096x1, .f32⟩
  | .hbm, ⟨62, _⟩ => ⟨S4x4096x1, .f32⟩
  | .hbm, ⟨63, _⟩ => ⟨S4x4096x4096, .f32⟩
  | .hbm, ⟨64, _⟩ => ⟨S4x4096x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x1024 : S_.BroadcastsInDim S4x4096x1024 (![] : Fin 0 → Fin S4x4096x1024.rank)
  reducesTo_S4096x1024_S_d0_1 : S4096x1024.ReducesTo [0, 1] S_
  bcast_S_S4096x1024 : S_.BroadcastsInDim S4096x1024 (![] : Fin 0 → Fin S4096x1024.rank)
  bcast_S4x4096x1_S4x4096x4096_0_1_2 : S4x4096x1.BroadcastsInDim S4x4096x4096 (![0, 1, 2] : Fin 3 → Fin S4x4096x4096.rank)
  dot_S4x4096x1024_S4096x1024_S4x4096x4096_2_1_01_0_n_n_wf : DotDims.WF S4x4096x1024 S4096x1024 S4x4096x4096 [2] [1] [0, 1] [0] [] []

variable [Facts₀]

def dot_S4x4096x1024_S4096x1024_S4x4096x4096_2_1_01_0_n_n : DotDims S4x4096x1024 S4096x1024 S4x4096x4096 where
  lhsContracting := [2]
  rhsContracting := [1]
  lhsNonContracting := [0, 1]
  rhsNonContracting := [0]
  lhsBatch := []
  rhsBatch := []
  wf := dot_S4x4096x1024_S4096x1024_S4x4096x4096_2_1_01_0_n_n_wf

class Facts : Prop extends Facts₀ where

variable [Facts]
-- ==== Proof.Finite.lean ====
/-
  The precondition read back: it says that the absolute value of every entry of the three inputs is
  below plus infinity, so every entry is a real number (neither infinity).
-/
import proofs.«112438_j84679575208073_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Cert.Pre_finite_inputs Cert.Pre_finite_inputs.Facts Idealize.ShloMosaic

instance : Subsingleton S_.Idx := ⟨fun a b => funext fun d => d.elim0⟩

/-- The pattern the precondition compares against denotes plus infinity. -/
theorem lit_inf : Ideal.ofBits .f32 0x7F800000#32 = (⊤ : EReal) := by
  simp [Ideal.ofBits, Ideal.ieee]

/-- An extended real whose absolute value is below plus infinity is a real. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have hlt : max x (-x) < (⊤ : EReal) := by
    have h' : BitVec.ofBool (decide (max x (-x) < Ideal.ofBits .f32 0x7F800000#32)) = 1#1 := h
    rw [lit_inf] at h'
    by_contra hn
    rw [decide_eq_false hn] at h'
    exact absurd h' (by decide)
  induction x using EReal.rec with
  | bot => exact absurd hlt (by simp)
  | top => exact absurd hlt (by simp)
  | coe r => exact ⟨r, rfl⟩

variable [Cert.Pre_finite_inputs.Facts]

/-- Under the precondition every entry of every input is a real. -/
theorem real_of_pre (X : FVec Ideal S4x4096x1024 .f32) (W : FVec Ideal S4096x1024 .f32) (G : FVec Ideal S1024 .f32)
    (h : Cert.Pre_finite_inputs.fn (F := Ideal) X W G = fun _ => 1#1) :
    (∀ i, ∃ r : ℝ, X i = (r : EReal)) ∧ (∀ i, ∃ r : ℝ, W i = (r : EReal)) ∧ (∀ i, ∃ r : ℝ, G i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨fun i => real_of_abs_lt (X i) (Host.reduce_andi_all _ _ _ _ _ h1 i),
    fun i => real_of_abs_lt (W i) (Host.reduce_andi_all _ _ _ _ _ h2 i),
    fun i => real_of_abs_lt (G i) (Host.reduce_andi_all _ _ _ _ _ h3 i)⟩

end Cert.Finite

end
-- ==== Proof.Spec.lean ====
/-
  The mathematics of the quantized linear layer, on the extended reals, one row at a time.

  A row `x` of 1024 activations is normalized by the reciprocal root of its mean square (plus a small
  constant) and scaled by the gains `g`; the row's scale is its largest absolute normalized entry
  divided by 127; each normalized entry divided by (scale + a small constant) is rounded to the nearest
  integer, ties to even, and clamped to [-128, 127]. A weight matrix is divided by its mean absolute
  entry (plus a small constant), and each quotient is replaced by its sign where its absolute value
  exceeds one half, by zero elsewhere. An output entry is the inner product of a quantized row with a
  ternary weight row, multiplied by the row's scale and by the weights' mean absolute entry.

  Also here: finite inputs keep the normalized entries and the scaled weights finite (the mean square
  plus a positive constant is positive, so its reciprocal root is a real; the mean absolute weight plus
  a positive constant is positive, so the quotient by it is a real), and subtracting a finite number
  and adding it back changes nothing.
-/
import Idealize.ShloMosaic.PureOps.Ideal
import Idealize.ShloMosaic.PureOps.Ideal.Laws
import Idealize.ShloMosaic.Lib.ValueIdx

noncomputable section

namespace Cert.BitLinear

open Idealize.ShloMosaic

/-! ## The constants the two programs spell, as the reals they denote -/

theorem lit_1024 : Ideal.ofBits .f32 0x44800000#32 = ((1024 : ℝ) : EReal) := by
  simp [Ideal.ofBits, Ideal.ieee, -EReal.coe_mul]; norm_num

theorem lit_count : Ideal.ofBits .f32 0x4A800000#32 = ((4194304 : ℝ) : EReal) := by
  simp [Ideal.ofBits, Ideal.ieee, -EReal.coe_mul]; norm_num

/-- The constant added to the mean square is a positive real. -/
theorem lit_normEps : ∃ e : ℝ, 0 < e ∧ Ideal.ofBits .f32 0x358637BD#32 = (e : EReal) := by
  refine ⟨_, ?_, by simp [Ideal.ofBits, Ideal.ieee, -EReal.coe_mul]; rfl⟩
  positivity

/-- The constant added to a quantization scale is a positive real. -/
theorem lit_quantEps : ∃ e : ℝ, 0 < e ∧ Ideal.ofBits .f32 0x3727C5AC#32 = (e : EReal) := by
  refine ⟨_, ?_, by simp [Ideal.ofBits, Ideal.ieee, -EReal.coe_mul]; rfl⟩
  positivity

/-! ## Reals inside the extended reals -/

/-- A finite sum of reals, taken in the extended reals, is the real sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The larger of a real and its negative is its absolute value. -/
theorem abs_coe (x : ℝ) : max (x : EReal) (-(x : EReal)) = ((|x| : ℝ) : EReal) := by
  rw [← EReal.coe_neg]
  rcases le_total 0 x with h | h
  · rw [max_eq_left (EReal.coe_le_coe_iff.2 (by linarith)), abs_of_nonneg h]
  · rw [max_eq_right (EReal.coe_le_coe_iff.2 (by linarith)), abs_of_nonpos h]

/-- Subtracting a real and adding it back gives the extended real one started from. -/
theorem sub_add_real (q : EReal) (r : ℝ) : q - (r : EReal) + (r : EReal) = q := EReal.sub_add_cancel

/-! ## One row of activations -/

/-- The reciprocal root of the row's mean square plus the normalization constant. -/
def rowRs (xr : Fin 1024 → EReal) : EReal :=
  Ideal.rsqrt (Ideal.div (∑ k, xr k * xr k) (Ideal.ofBits .f32 0x44800000#32) + Ideal.ofBits .f32 0x358637BD#32)

/-- The normalized row: each entry times the reciprocal root, times its gain. -/
def rowNorm (xr g : Fin 1024 → EReal) (k : Fin 1024) : EReal := xr k * rowRs xr * g k

/-- The largest absolute normalized entry of the row (the maximum taken from minus infinity). -/
def rowAmax (xr g : Fin 1024 → EReal) : EReal :=
  (Finset.univ : Finset (Fin 1024)).fold max (Ideal.ofBits .f32 0xFF800000#32)
    (fun k => max (rowNorm xr g k) (-(rowNorm xr g k)))

/-- The row's quantization scale: the largest absolute normalized entry over 127. -/
def rowScale (xr g : Fin 1024 → EReal) : EReal := Ideal.div (rowAmax xr g) (Ideal.ofBits .f32 0x42FE0000#32)

/-- The quantized row: normalized entry over (scale + constant), rounded half to even, clamped to [-128, 127]. -/
def rowQuant (xr g : Fin 1024 → EReal) (k : Fin 1024) : EReal :=
  min (Ideal.ofBits .f32 0x42FE0000#32) (max (Ideal.ofBits .f32 0xC3000000#32)
    (Ideal.liftRound Ideal.roundHalfEven (Ideal.div (rowNorm xr g k) (rowScale xr g + Ideal.ofBits .f32 0x3727C5AC#32))))

/-- One output entry: the quantized row against a ternary weight row, times the row's scale, times the weights' scale. -/
def rowOut (xr g wr : Fin 1024 → EReal) (ws : EReal) : EReal :=
  (∑ k, rowQuant xr g k * wr k) * rowScale xr g * ws

/-! ## The weights -/

abbrev SW : Shape := ⟨2, ![4096, 1024]⟩

/-- The mean absolute weight. -/
def wMean (W : SW.Idx → EReal) : EReal :=
  Ideal.div (∑ j, max (W j) (-(W j))) (Ideal.ofBits .f32 0x4A800000#32)

/-- A weight over (mean absolute weight + constant). -/
def wScaled (W : SW.Idx → EReal) (j : SW.Idx) : EReal :=
  Ideal.div (W j) (wMean W + Ideal.ofBits .f32 0x3727C5AC#32)

/-- The ternary weight: the sign of the scaled weight where its absolute value exceeds one half, zero elsewhere. -/
def wTern (W : SW.Idx → EReal) (j : SW.Idx) : EReal :=
  Ideal.sign (wScaled W j) * FloatOps.uitofp (F := Ideal) .f32
    (FloatOps.cmpf (F := Ideal) (φ := .f32) .ogt (max (wScaled W j) (-(wScaled W j))) (Ideal.ofBits .f32 0x3F000000#32))

/-! ## Finite inputs stay finite where the reference subtracts and adds back -/

/-- For a row of reals the reciprocal root is a real: the mean square plus a positive constant is positive. -/
theorem rowRs_real (a : Fin 1024 → ℝ) : ∃ r : ℝ, rowRs (fun k => (a k : EReal)) = (r : EReal) := by
  obtain ⟨e, he, hE⟩ := lit_normEps
  unfold rowRs
  have h1 : ∑ k, ((a k : ℝ) : EReal) * ((a k : ℝ) : EReal) = ((∑ k, a k * a k : ℝ) : EReal) := by
    rw [← coe_sum]; exact Finset.sum_congr rfl fun k _ => (EReal.coe_mul _ _).symm
  rw [h1, lit_1024, hE, Ideal.div_coe (by norm_num : (1024 : ℝ) ≠ 0), ← EReal.coe_mul, ← EReal.coe_add]
  have hpos : 0 < (∑ k, a k * a k) * (1 / 1024) + e := by
    have : 0 ≤ ∑ k, a k * a k := Finset.sum_nonneg fun k _ => mul_self_nonneg _
    positivity
  rw [Ideal.rsqrt_coe, if_neg (not_lt.mpr hpos.le), if_neg hpos.ne']
  exact ⟨_, rfl⟩

/-- So every normalized entry of a row of reals with real gains is a real. -/
theorem rowNorm_real (a b : Fin 1024 → ℝ) (k : Fin 1024) :
    ∃ r : ℝ, rowNorm (fun k => (a k : EReal)) (fun k => (b k : EReal)) k = (r : EReal) := by
  obtain ⟨r, hr⟩ := rowRs_real a
  exact ⟨a k * r * b k, by unfold rowNorm; rw [hr, ← EReal.coe_mul, ← EReal.coe_mul]⟩

/-- For real weights every scaled weight is a real: the mean absolute weight plus a positive constant is positive. -/
theorem wScaled_real (w : SW.Idx → ℝ) (j : SW.Idx) : ∃ r : ℝ, wScaled (fun j => (w j : EReal)) j = (r : EReal) := by
  obtain ⟨e, he, hE⟩ := lit_quantEps
  unfold wScaled wMean
  have h1 : ∑ j, max ((w j : ℝ) : EReal) (-((w j : ℝ) : EReal)) = ((∑ j, |w j| : ℝ) : EReal) := by
    rw [← coe_sum]; exact Finset.sum_congr rfl fun j _ => abs_coe _
  rw [h1, lit_count, hE, Ideal.div_coe (by norm_num : (4194304 : ℝ) ≠ 0), ← EReal.coe_mul, ← EReal.coe_add]
  have hpos : 0 < (∑ j, |w j|) * (1 / 4194304) + e := by
    have : 0 ≤ ∑ j, |w j| := Finset.sum_nonneg fun j _ => abs_nonneg _
    positivity
  rw [Ideal.div_coe hpos.ne', ← EReal.coe_mul]
  exact ⟨_, rfl⟩

end Cert.BitLinear

end
-- ==== Proof.RefValue.lean ====
/-
  The reference program, read one operation at a time, computes the quantized linear layer of
  Spec.lean: entry (b, s, n) of its result is the quantized row (b, s) of the activations against the
  ternary weight row n, times the row's scale times the weights' mean absolute entry.

  The reference writes the quantized activations as (quantized − normalized) + normalized, and the
  ternary weights as (ternary − scaled) + scaled; for finite inputs the normalized entries and the
  scaled weights are reals, so both are the quantized, respectively the ternary, values themselves.
  It multiplies the inner product by (row scale · weight scale); the product of extended reals is
  associative, so this is the inner product times the row scale, times the weight scale.
-/
import proofs.«112438_j84679575208073_2_alg».proof.Proof.Gen.ReferenceIdeal.Read
import proofs.«112438_j84679575208073_2_alg».proof.Proof.Spec
import Idealize.ShloMosaic.PureOps.Reduce

noncomputable section

namespace Cert.ReferenceIdeal.RefValue

open Cert.ReferenceIdeal Cert.ReferenceIdeal.Gen Cert.ReferenceIdeal.Read Cert.BitLinear
open Idealize.ShloMosaic Idealize.ShloMosaic.ValueIdx

variable (X : FVec Ideal S4x4096x1024 .f32) (W : FVec Ideal S4096x1024 .f32) (G : FVec Ideal S1024 .f32)

/-! ## The activations' side -/

/-- The reciprocal root of row (b, s)'s mean square plus the constant. -/
theorem rs_eq (b : Fin 4) (s : Fin 4096) (u : Fin 1) :
    val_main_v7 (F := Ideal) X (ix3 b s u) = rowRs (fun k => X (ix3 b s k)) := by
  have e1 : ∀ k : Fin 1024, idx_main_v1 (idx_main_v2 (ix3 b s u)) k = ix3 b s k := fun k =>
    funext fun a => by match a with | ⟨0, _⟩ => rfl | ⟨1, _⟩ => rfl | ⟨2, _⟩ => rfl
  rw [val_main_v7_apply, val_main_v6_apply, val_main_v4_apply, val_main_v2_apply, val_main_v1_apply,
    val_main_v3_apply, val_main_cst_0_apply, val_main_v5_apply, val_main_cst_1_apply, val_main_cst_apply]
  simp only [val_main_v0_apply, e1, Ideal.hostUnary_rsqrt_def, Ideal.addf_def, Ideal.hostDivf_def, Ideal.mulf_def,
    Ideal.ofBits_def, Ideal.ofBits_zero_f32, zero_add]
  rfl

/-- The normalized entry (b, s, k). -/
theorem norm_eq (b : Fin 4) (s : Fin 4096) (k : Fin 1024) :
    val_main_v12 (F := Ideal) X G (ix3 b s k) = rowNorm (fun k => X (ix3 b s k)) (fun k => G (ix1 k)) k := by
  have e1 : idx_main_v8 (ix3 b s k) = ix3 b s (0 : Fin 1) :=
    funext fun a => by match a with | ⟨0, _⟩ => rfl | ⟨1, _⟩ => rfl | ⟨2, _⟩ => rfl
  have e2 : idx_main_v10 (idx_main_v11 (ix3 b s k)) = ix1 k :=
    funext fun a => by match a with | ⟨0, _⟩ => rfl
  rw [val_main_v12_apply, val_main_v9_apply, val_main_v8_apply, val_main_v11_apply, val_main_v10_apply, e1, e2, rs_eq]
  rfl

/-- The largest absolute normalized entry of row (b, s). -/
theorem amax_eq (b : Fin 4) (s : Fin 4096) :
    val_main_v14 (F := Ideal) X G (ix2 b s) = rowAmax (fun k => X (ix3 b s k)) (fun k => G (ix1 k)) := by
  have hred : Shape.Reduces S4x4096x1024 [2] S4x4096 := by decide
  have e1 : ∀ k : Fin 1024, hred.lift (ix2 b s) k = ix3 b s k := fun k =>
    funext fun a => Fin.ext (by match a with | ⟨0, _⟩ => rfl | ⟨1, _⟩ => rfl | ⟨2, _⟩ => rfl)
  unfold val_main_v14
  generalize hy : val_main_v13 (F := Ideal) X G = y
  have h1 := Host.reduce_eq_fold_single (s := S4x4096x1024) (t := S4x4096) (a := (2 : Fin 3)) (u := S_)
    (FloatOps.maximumf (F := Ideal) (φ := .f32)) y (val_main_cst_2 (F := Ideal))
    reducesTo_S4x4096x1024_S4x4096_d2 hred h_S_ (ix2 b s)
  refine h1.trans ?_
  subst hy
  unfold rowAmax
  have e2 : (val_main_v13 (F := Ideal) X G ∘ hred.lift (ix2 b s))
      = fun k : Fin 1024 => max (rowNorm (fun k => X (ix3 b s k)) (fun k => G (ix1 k)) k)
          (-(rowNorm (fun k => X (ix3 b s k)) (fun k => G (ix1 k)) k)) :=
    funext fun (k : Fin 1024) => by
      show val_main_v13 (F := Ideal) X G (hred.lift (ix2 b s) k) = _
      rw [e1 k, val_main_v13_apply, norm_eq]
      rfl
  rw [e2]
  rfl

/-- The scale of row (b, s). -/
theorem scale_eq (b : Fin 4) (s : Fin 4096) (u : Fin 1) :
    val_main_v17 (F := Ideal) X G (ix3 b s u) = rowScale (fun k => X (ix3 b s k)) (fun k => G (ix1 k)) := by
  have e1 : idx_main_v15 (ix3 b s u) = ix2 b s :=
    funext fun a => by match a with | ⟨0, _⟩ => rfl | ⟨1, _⟩ => rfl
  rw [val_main_v17_apply, val_main_v15_apply, e1, amax_eq, val_main_v16_apply, val_main_cst_3_apply]
  rfl

/-- The rounded and clamped entry (b, s, k). -/
theorem quant_eq (b : Fin 4) (s : Fin 4096) (k : Fin 1024) :
    val_main_v23 (F := Ideal) X G (ix3 b s k) = rowQuant (fun k => X (ix3 b s k)) (fun k => G (ix1 k)) k := by
  have e1 : idx_main_v20 (ix3 b s k) = ix3 b s (0 : Fin 1) :=
    funext fun a => by match a with | ⟨0, _⟩ => rfl | ⟨1, _⟩ => rfl | ⟨2, _⟩ => rfl
  rw [val_main_v23_apply, val_main_call1_v4_apply, val_main_call1_v3_apply, val_main_cst_6_apply,
    val_main_call1_v2_apply, val_main_call1_v1_apply, val_main_call1_v0_apply, val_main_cst_5_apply,
    val_main_v22_apply, val_main_v21_apply, norm_eq, val_main_v20_apply, e1, val_main_v19_apply, scale_eq,
    val_main_v18_apply, val_main_cst_4_apply]
  rfl

/-- What the reference contracts: (quantized − normalized) + normalized, the quantized entry when the inputs are finite. -/
theorem ste_eq (hX : ∀ i, ∃ r : ℝ, X i = (r : EReal)) (hG : ∀ i, ∃ r : ℝ, G i = (r : EReal))
    (b : Fin 4) (s : Fin 4096) (k : Fin 1024) :
    val_main_v25 (F := Ideal) X G (ix3 b s k) = rowQuant (fun k => X (ix3 b s k)) (fun k => G (ix1 k)) k := by
  choose a ha using hX
  choose g hg using hG
  obtain ⟨r, hr⟩ := rowNorm_real (fun k => a (ix3 b s k)) (fun k => g (ix1 k)) k
  have hr' : rowNorm (fun k => X (ix3 b s k)) (fun k => G (ix1 k)) k = (r : EReal) := by
    rw [← hr]; congr 1 <;> funext k <;> [exact ha _; exact hg _]
  rw [val_main_v25_apply, val_main_v24_apply, quant_eq, norm_eq, hr']
  exact sub_add_real _ r

/-! ## The weights' side -/

/-- The mean absolute weight. -/
theorem wmean_eq (i : S_.Idx) : val_main_v28 (F := Ideal) W i = wMean W := by
  rw [val_main_v28_apply, val_main_v27_apply, val_main_cst_8_apply, val_main_cst_7_apply]
  simp only [val_main_v26_apply, Ideal.hostDivf_def, Ideal.ofBits_def, Ideal.ofBits_zero_f32, zero_add,
    Ideal.hostAbsf_def, Ideal.absf_def]
  rfl

/-- A scaled weight. -/
theorem wscaled_eq (j : S4096x1024.Idx) : val_main_v31 (F := Ideal) W j = wScaled W j := by
  rw [val_main_v31_apply, val_main_v30_apply, val_main_v29_apply, wmean_eq, val_main_cst_9_apply]
  rfl

/-- A ternary weight. -/
theorem wtern_eq (j : S4096x1024.Idx) : val_main_v37 (F := Ideal) W j = wTern W j := by
  rw [val_main_v37_apply, val_main_v32_apply, val_main_v36_apply, val_main_v35_apply, val_main_v33_apply,
    val_main_v34_apply, val_main_cst_10_apply, wscaled_eq]
  rfl

/-- What the reference contracts with: (ternary − scaled) + scaled, the ternary weight when the weights are finite. -/
theorem wste_eq (hW : ∀ i, ∃ r : ℝ, W i = (r : EReal)) (j : S4096x1024.Idx) :
    val_main_v39 (F := Ideal) W j = wTern W j := by
  choose w hw using hW
  obtain ⟨r, hr⟩ := wScaled_real w j
  have hr' : wScaled W j = (r : EReal) := by
    rw [← hr]; congr 1; funext i; exact hw i
  rw [val_main_v39_apply, val_main_v38_apply, wtern_eq, wscaled_eq, hr']
  exact sub_add_real _ r

/-! ## The result -/

/-- Entry (b, s, n) of the reference's result, for finite inputs. -/
theorem result_eq (hX : ∀ i, ∃ r : ℝ, X i = (r : EReal)) (hW : ∀ i, ∃ r : ℝ, W i = (r : EReal))
    (hG : ∀ i, ∃ r : ℝ, G i = (r : EReal)) (b : Fin 4) (s : Fin 4096) (n : Fin 4096) :
    val_main_v44 (F := Ideal) X W G (ix3 b s n)
      = rowOut (fun k => X (ix3 b s k)) (fun k => G (ix1 k)) (fun k => wTern W (ix2 n k)) (wMean W) := by
  have e1 : ∀ k : Fin 1024, lidx_main_v40 (ix3 b s n) k = ix3 b s k := fun k =>
    funext fun a => by match a with | ⟨0, _⟩ => rfl | ⟨1, _⟩ => rfl | ⟨2, _⟩ => rfl
  have e2 : ∀ k : Fin 1024, ridx_main_v40 (ix3 b s n) k = ix2 n k := fun k =>
    funext fun a => by match a with | ⟨0, _⟩ => rfl | ⟨1, _⟩ => rfl
  have e3 : idx_main_v43 (ix3 b s n) = ix3 b s (0 : Fin 1) :=
    funext fun a => by match a with | ⟨0, _⟩ => rfl | ⟨1, _⟩ => rfl | ⟨2, _⟩ => rfl
  rw [val_main_v44_apply, val_main_v40_apply, val_main_v43_apply, e3, val_main_v42_apply, scale_eq,
    val_main_v41_apply, wmean_eq]
  simp only [e1, e2, ste_eq X G hX hG, wste_eq W hW]
  unfold rowOut
  exact (mul_assoc _ _ _).symm

/-! ## The layer as one function of the three inputs -/

/-- Entry (b, s, n): the quantized row (b, s) against the ternary weight row n, scaled. -/
def layer : FVec Ideal S4x4096x4096 .f32 := fun i =>
  rowOut (fun k => X (ix3 (⟨(i 0).val, (i 0).isLt⟩ : Fin 4) (⟨(i 1).val, (i 1).isLt⟩ : Fin 4096) k)) (fun k => G (ix1 k))
    (fun k => wTern W (ix2 (⟨(i 2).val, (i 2).isLt⟩ : Fin 4096) k)) (wMean W)

theorem layer_apply (b : Fin 4) (s : Fin 4096) (n : Fin 4096) :
    layer X W G (ix3 b s n)
      = rowOut (fun k => X (ix3 b s k)) (fun k => G (ix1 k)) (fun k => wTern W (ix2 n k)) (wMean W) := rfl

/-- An array that holds the layer's entry at every (b, s, n) is the layer. -/
theorem eq_layer_of_apply (Y : FVec Ideal S4x4096x4096 .f32)
    (h : ∀ (b : Fin 4) (s : Fin 4096) (n : Fin 4096), Y (ix3 b s n)
      = rowOut (fun k => X (ix3 b s k)) (fun k => G (ix1 k)) (fun k => wTern W (ix2 n k)) (wMean W)) :
    Y = layer X W G := funext fun i => by
  have hi : i = ix3 (⟨(i 0).val, (i 0).isLt⟩ : Fin 4) (⟨(i 1).val, (i 1).isLt⟩ : Fin 4096) (⟨(i 2).val, (i 2).isLt⟩ : Fin 4096) :=
    funext fun a => by match a with | ⟨0, _⟩ => rfl | ⟨1, _⟩ => rfl | ⟨2, _⟩ => rfl
  exact (congrArg Y hi).trans ((h _ _ _).trans ((layer_apply X W G _ _ _).symm.trans (congrArg (layer X W G) hi).symm))

/-- The reference's result array, for finite inputs, is the layer. -/
theorem ref_layer (hX : ∀ i, ∃ r : ℝ, X i = (r : EReal)) (hW : ∀ i, ∃ r : ℝ, W i = (r : EReal))
    (hG : ∀ i, ∃ r : ℝ, G i = (r : EReal)) : val_main_v44 (F := Ideal) X W G = layer X W G :=
  eq_layer_of_apply X W G _ (result_eq X W G hX hW hG)

end Cert.ReferenceIdeal.RefValue

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.Payload.lean ====
/-
  The kernel body's arithmetic, read at one entry of its output block. The body normalizes each row of
  its activation block, takes the row's largest absolute normalized entry, rounds and clamps the row,
  multiplies the quantized block by the transposed ternary weight block on the matrix unit, and scales
  entry (p, q) of the product by row p's scale and by the weights' scale. So entry (p, q) of what it
  stores is the row function of Spec.lean at row p of the activation block and row q of the weight block.
-/
import proofs.«112438_j84679575208073_2_alg».proof.Proof.Gen.KernelIdeal.Skeleton
import proofs.«112438_j84679575208073_2_alg».proof.Proof.Spec
import proofs.«112438_j84679575208073_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Cert.BitLinear Cert.Columns
open Idealize.ShloMosaic Idealize.ShloMosaic.ValueIdx

/-! ## The body's reductions, casts and broadcasts at an index -/

/-- A sum along the rows of the block, at row `p`. -/
theorem rowSum_apply (src : FVec Ideal S1024x1024 .f32) (h) (hφ) (hacc) (p : Fin 1024) :
    multiReduction .add [1] S1024 src 0x00000000#32 h hφ hacc (ix1 p) = ∑ k : Fin 1024, src (ix2 p k) :=
  (Ideal.multiReduction_add_single src 0x00000000#32 h hφ hacc (ix1 p)).trans
    (Finset.sum_congr rfl fun k _ => congrArg src (lift_row h p k))

/-- A maximum along the rows of the block, at row `p`: the running maximum from minus infinity. -/
theorem rowMax_apply (src : FVec Ideal S1024x1024 .f32) (h) (hφ) (hacc) (p : Fin 1024) :
    multiReduction .maximumf [1] S1024 src 0xFF800000#32 h hφ hacc (ix1 p)
      = (Finset.univ : Finset (Fin 1024)).fold max (Ideal.ofBits .f32 0xFF800000#32) (fun k => src (ix2 p k)) :=
  (Ideal.multiReduction_maximumf_single src 0xFF800000#32 h hφ hacc (ix1 p)).trans
    (congrArg (fun f => (Finset.univ : Finset (Fin 1024)).fold max (Ideal.ofBits .f32 0xFF800000#32) f)
      (funext fun k => congrArg src (lift_row h p k)))

theorem rowSum_at (src : FVec Ideal S1024x1024 .f32) (h : S1024x1024.Reduces [1] S1024) (hφ : FKind.Formats .f32)
    (hacc : (0x00000000#32 : BitVec 32) = 0x00000000#32) (p : Fin 1024) :
    multiReduction .add [1] S1024 src 0x00000000#32 h hφ hacc (ix1 p) = ∑ k : Fin 1024, src (ix2 p k) :=
  rowSum_apply src h hφ hacc p

theorem rowMax_at (src : FVec Ideal S1024x1024 .f32) (h : S1024x1024.Reduces [1] S1024) (hφ : FKind.Formats .f32)
    (hacc : (0xFF800000#32 : BitVec 32) = 0xFF800000#32) (p : Fin 1024) :
    multiReduction .maximumf [1] S1024 src 0xFF800000#32 h hφ hacc (ix1 p)
      = (Finset.univ : Finset (Fin 1024)).fold max (Ideal.ofBits .f32 0xFF800000#32) (fun k => src (ix2 p k)) :=
  rowMax_apply src h hφ hacc p

theorem col_apply (v : FVec Ideal S1024 .f32) (h : S1024.ShapeCasts S1024x1) (p : Fin 1024) (u : Fin 1) :
    shapeCast S1024x1 v h (ix2 p u) = v (ix1 p) := shapeCast_a_a1_apply v h p u

theorem colBcast_apply (v : FVec Ideal S1024x1 .f32) (h : S1024x1.Broadcasts S1024x1024) (p q : Fin 1024) :
    broadcastTo S1024x1024 v h (ix2 p q) = v (ix2 p (0 : Fin 1)) := broadcastTo_a1_ab_apply v h p q

theorem rowBcast_apply (v : FVec Ideal S1x1024 .f32) (h : S1x1024.Broadcasts S1024x1024) (p q : Fin 1024) :
    broadcastTo S1024x1024 v h (ix2 p q) = v (ix2 (0 : Fin 1) q) := broadcastTo_1b_ab_apply v h p q

theorem oneBcast_apply (v : FVec Ideal S1x1 .f32) (h : S1x1.Broadcasts S1024x1024) (p q : Fin 1024) :
    broadcastTo S1024x1024 v h (ix2 p q) = v (ix2 (0 : Fin 1) (0 : Fin 1)) := broadcastTo_11_ab_apply v h p q

theorem absf_apply {s : Shape} (a : FVec Ideal s .f32) (i : s.Idx) : absf a i = max (a i) (-(a i)) := rfl
theorem rsqrt_apply {s : Shape} (a : FVec Ideal s .f32) (i : s.Idx) : rsqrt a i = Ideal.rsqrt (a i) := rfl
theorem roundeven_apply {s : Shape} (a : FVec Ideal s .f32) (i : s.Idx) :
    roundeven a i = Ideal.liftRound Ideal.roundHalfEven (a i) := rfl

/-! ## The matrix product at an entry -/

theorem lhs0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- Entry (p, q) of the product with the transposed right factor, into a zero accumulator: row p against row q. -/
theorem product_apply (lhs rhs : FVec Ideal S1024x1024 .bf16) (p q : Fin 1024) :
    matmul dot_S1024x1024_S1024x1024_S1024x1024_1_1_0_0_n_n none lhs rhs (constant S1024x1024 .f32 0x00000000#32) (ix2 p q)
      = ∑ k : Fin 1024, lhs (ix2 p k) * rhs (ix2 q k) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun a => Fin.ext (by
      match a with
      | ⟨0, _⟩ => exact lhs0 _ _
      | ⟨1, _⟩ => exact (lhs1 _ _).trans hk)
  have er : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun a => Fin.ext (by
      match a with
      | ⟨0, _⟩ => exact rhs0 _ _
      | ⟨1, _⟩ => exact (rhs1 _ _).trans hk)
  rw [el, er]

/-! ## The payload at an entry -/

/-- Entry (p, q) of the stored block: the row function at row p of the activations, the gains, row q of the
    ternary weights and the weights' scale. -/
theorem pay_apply (x0 : FVec Ideal S1024x1024 .f32) (x2 : FVec Ideal S1x1024 .f32) (x1 : FVec Ideal S1024x1024 .bf16)
    (x3 : FVec Ideal S1x1 .f32) (p q : Fin 1024) :
    k0_pay1 (F := Ideal) x0 x2 x1 x3 (ix2 p q)
      = rowOut (fun k => x0 (ix2 p k)) (fun k => x2 (ix2 (0 : Fin 1) k)) (fun k => x1 (ix2 q k))
          (x3 (ix2 (0 : Fin 1) (0 : Fin 1))) := by
  unfold k0_pay1 rowOut rowQuant rowScale rowAmax rowNorm rowRs
  simp only [shapeCast_self, mulf_apply, addf_apply, divf_apply, maximumf_apply, minimumf_apply, truncf_apply,
    broadcast_apply, absf_apply, rsqrt_apply, roundeven_apply, product_apply, rowSum_apply, rowMax_apply,
    col_apply, colBcast_apply, rowBcast_apply, oneBcast_apply, Ideal.ofBits_def]
  rw [rowMax_at]
  simp only [shapeCast_self, mulf_apply, addf_apply, divf_apply, maximumf_apply, minimumf_apply, truncf_apply,
    broadcast_apply, absf_apply, rsqrt_apply, roundeven_apply, product_apply, rowSum_apply, rowMax_apply,
    col_apply, colBcast_apply, rowBcast_apply, oneBcast_apply, Ideal.ofBits_def]
  rw [rowSum_at]
  simp only [mulf_apply]

end Cert.KernelIdeal.Body

end
-- ==== Proof.KernelValue.lean ====
/-
  From blocks to the array. Grid point (i, j) reads rows i·1024 … i·1024+1023 of the flattened
  activations, rows j·1024 … j·1024+1023 of the ternary weights, the whole row of gains and the weights'
  scale, and writes block (i, j) of the result. Entry (p, q) of that block is the row function at row
  i·1024+p of the activations and row j·1024+q of the weights: the blocks are the restrictions of ONE
  function of the four arrays the region reads, and the sixty-four blocks tile the result.
-/
import proofs.«112438_j84679575208073_2_alg».proof.Proof.Gen.KernelIdeal.Frame
import proofs.«112438_j84679575208073_2_alg».proof.Proof.Payload
import Idealize.ShloMosaic.Lib.Pipeline.Value

noncomputable section

namespace Cert.KernelIdeal.Blocks

open Cert.KernelIdeal Cert.KernelIdeal.Gen Cert.KernelIdeal.Body Cert.BitLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The whole result as one function of the four arrays the region reads: entry (r, n) is the row function at
    row r of the flattened activations, the gains, row n of the ternary weights, and the weights' scale. -/
def whole (A0 : FVec Ideal S16384x1024 .f32) (A1 : FVec Ideal S4096x1024 .bf16) (A2 : FVec Ideal S1x1024 .f32)
    (A3 : FVec Ideal S1x1 .f32) : FVec Ideal S16384x4096 .f32 :=
  fun i => rowOut (fun k => A0 (ix2 (⟨(i 0).val, (i 0).isLt⟩ : Fin 16384) k)) (fun k => A2 (ix2 (0 : Fin 1) k))
    (fun k => A1 (ix2 (⟨(i 1).val, (i 1).isLt⟩ : Fin 4096) k)) (A3 (ix2 (0 : Fin 1) (0 : Fin 1)))

/-- The payload at any entry of the block, the entry's coordinates named. -/
theorem pay_at (x0 : FVec Ideal S1024x1024 .f32) (x2 : FVec Ideal S1x1024 .f32) (x1 : FVec Ideal S1024x1024 .bf16)
    (x3 : FVec Ideal S1x1 .f32) (j : S1024x1024.Idx) :
    k0_pay1 (F := Ideal) x0 x2 x1 x3 j
      = rowOut (fun k => x0 (ix2 (⟨(j 0).val, (j 0).isLt⟩ : Fin 1024) k)) (fun k => x2 (ix2 (0 : Fin 1) k))
          (fun k => x1 (ix2 (⟨(j 1).val, (j 1).isLt⟩ : Fin 1024) k)) (x3 (ix2 (0 : Fin 1) (0 : Fin 1))) := by
  have hj : j = ix2 (⟨(j 0).val, (j 0).isLt⟩ : Fin 1024) (⟨(j 1).val, (j 1).isLt⟩ : Fin 1024) :=
    funext fun a => by match a with | ⟨0, _⟩ => rfl | ⟨1, _⟩ => rfl
  exact (congrArg (k0_pay1 (F := Ideal) x0 x2 x1 x3) hj).trans (pay_apply x0 x2 x1 x3 _ _)

/-- The printed index maps, decided once over the sixty-four grid points. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every block of the result is some point's. -/
theorem idx_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-! ## Each input block read where the output block's entry says -/

theorem iblk0_apply (c : Dev nD) (t : Fin cfg0.N) (x : S1024x1024.Idx) (i : S16384x1024.Idx)
    (h0 : (i 0).val = win0_0.index t (0 : Fin 2) * 1024 + (x 0).val)
    (h1 : (i 1).val = win0_0.index t (1 : Fin 2) * 1024 + (x 1).val) :
    (iblk m c 0 t : Vec Ideal S1024x1024 .f32) x = (V m c main_v0 : S16384x1024.Idx → EReal) i := by
  unfold iblk
  rw [View.read_apply]
  show V m c main_v0 _ = V m c main_v0 _
  refine congrArg (V m c main_v0) (funext fun a => Fin.ext ?_)
  match a with
  | ⟨0, _⟩ => show win0_0.index t (0 : Fin 2) * 1024 + 1 * (x 0).val = (i 0).val; omega
  | ⟨1, _⟩ => show win0_0.index t (1 : Fin 2) * 1024 + 1 * (x 1).val = (i 1).val; omega

theorem iblk1_apply (c : Dev nD) (t : Fin cfg0.N) (x : S1024x1024.Idx) (i : S4096x1024.Idx)
    (h0 : (i 0).val = win0_1.index t (0 : Fin 2) * 1024 + (x 0).val)
    (h1 : (i 1).val = win0_1.index t (1 : Fin 2) * 1024 + (x 1).val) :
    (iblk m c 1 t : Vec Ideal S1024x1024 .bf16) x = (V m c main_v13 : S4096x1024.Idx → EReal) i := by
  unfold iblk
  rw [View.read_apply]
  show V m c main_v13 _ = V m c main_v13 _
  refine congrArg (V m c main_v13) (funext fun a => Fin.ext ?_)
  match a with
  | ⟨0, _⟩ => show win0_1.index t (0 : Fin 2) * 1024 + 1 * (x 0).val = (i 0).val; omega
  | ⟨1, _⟩ => show win0_1.index t (1 : Fin 2) * 1024 + 1 * (x 1).val = (i 1).val; omega

theorem iblk2_apply (c : Dev nD) (t : Fin cfg0.N) (x : S1x1024.Idx) (i : S1x1024.Idx)
    (h0 : (i 0).val = win0_2.index t (0 : Fin 2) * 1 + (x 0).val)
    (h1 : (i 1).val = win0_2.index t (1 : Fin 2) * 1024 + (x 1).val) :
    (iblk m c 2 t : Vec Ideal S1x1024 .f32) x = (V m c main_v15 : S1x1024.Idx → EReal) i := by
  unfold iblk
  rw [View.read_apply]
  show V m c main_v15 _ = V m c main_v15 _
  refine congrArg (V m c main_v15) (funext fun a => Fin.ext ?_)
  match a with
  | ⟨0, _⟩ => show win0_2.index t (0 : Fin 2) * 1 + 1 * (x 0).val = (i 0).val; omega
  | ⟨1, _⟩ => show win0_2.index t (1 : Fin 2) * 1024 + 1 * (x 1).val = (i 1).val; omega

theorem iblk3_apply (c : Dev nD) (t : Fin cfg0.N) (x : S1x1.Idx) (i : S1x1.Idx)
    (h0 : (i 0).val = win0_3.index t (0 : Fin 2) * 1 + (x 0).val)
    (h1 : (i 1).val = win0_3.index t (1 : Fin 2) * 1 + (x 1).val) :
    (iblk m c 3 t : Vec Ideal S1x1 .f32) x = (V m c main_v14 : S1x1.Idx → EReal) i := by
  unfold iblk
  rw [View.read_apply]
  show V m c main_v14 _ = V m c main_v14 _
  refine congrArg (V m c main_v14) (funext fun a => Fin.ext ?_)
  match a with
  | ⟨0, _⟩ => show win0_3.index t (0 : Fin 2) * 1 + 1 * (x 0).val = (i 0).val; omega
  | ⟨1, _⟩ => show win0_3.index t (1 : Fin 2) * 1 + 1 * (x 1).val = (i 1).val; omega

/-! ## What a point writes back, the cover, the array -/

/-- What point `t` writes back is block `t` of the one whole-array function. -/
theorem flushed_eq (c : Dev nD) (t : Fin cfg0.N) :
    (dats m 0 c).flushed 4 t = ((cfg0.win 4).blk t).view.read (Elt Ideal)
      (whole (V m c main_v0) (V m c main_v13) (V m c main_v15) (V m c main_v14)) := by
  show (cfg0.win 4).cut (grid0.coords t) ((dats m 0 c).after 4 t) = _
  rw [after0_4]
  unfold out0_4
  rw [View.canon_unit_zero hz]
  simp only [View.ld_unit_zero (S := S1024x1024) hz, View.ld_unit_zero (S := S1x1024) hz, View.ld_unit_zero (S := S1x1) hz]
  obtain ⟨e0, e1, e2, e3, e4, e5, e6, e7⟩ := idx_facts t
  funext j
  have hj0 : (j 0).val < 1024 := (j 0).isLt
  have hj1 : (j 1).val < 1024 := (j 1).isLt
  refine (pay_at (iblk m c 0 t) (iblk m c 2 t) (iblk m c 1 t) (iblk m c 3 t) j).trans ?_
  rw [View.read_apply]
  unfold whole
  have b0 : ∀ k : Fin 1024, (iblk m c 0 t : Vec Ideal S1024x1024 .f32) (ix2 (⟨(j 0).val, hj0⟩ : Fin 1024) k)
      = (V m c main_v0 : S16384x1024.Idx → EReal)
          (ix2 (⟨((((cfg0.win 4).blk t).view.emb j) 0).val, ((((cfg0.win 4).blk t).view.emb j) 0).isLt⟩ : Fin 16384) k) := fun k =>
    iblk0_apply m c t _ _
      (by show win0_4.index t (0 : Fin 2) * 1024 + 1 * (j 0).val = win0_0.index t (0 : Fin 2) * 1024 + (j 0).val; omega)
      (by show k.val = win0_0.index t (1 : Fin 2) * 1024 + k.val; omega)
  have b1 : ∀ k : Fin 1024, (iblk m c 1 t : Vec Ideal S1024x1024 .bf16) (ix2 (⟨(j 1).val, hj1⟩ : Fin 1024) k)
      = (V m c main_v13 : S4096x1024.Idx → EReal)
          (ix2 (⟨((((cfg0.win 4).blk t).view.emb j) 1).val, ((((cfg0.win 4).blk t).view.emb j) 1).isLt⟩ : Fin 4096) k) := fun k =>
    iblk1_apply m c t _ _
      (by show win0_4.index t (1 : Fin 2) * 1024 + 1 * (j 1).val = win0_1.index t (0 : Fin 2) * 1024 + (j 1).val; omega)
      (by show k.val = win0_1.index t (1 : Fin 2) * 1024 + k.val; omega)
  have b2 : ∀ k : Fin 1024, (iblk m c 2 t : Vec Ideal S1x1024 .f32) (ix2 (0 : Fin 1) k)
      = (V m c main_v15 : S1x1024.Idx → EReal) (ix2 (0 : Fin 1) k) := fun k =>
    iblk2_apply m c t _ _
      (by show (0 : Nat) = win0_2.index t (0 : Fin 2) * 1 + 0; omega)
      (by show k.val = win0_2.index t (1 : Fin 2) * 1024 + k.val; omega)
  have b3 : (iblk m c 3 t : Vec Ideal S1x1 .f32) (ix2 (0 : Fin 1) (0 : Fin 1))
      = (V m c main_v14 : S1x1.Idx → EReal) (ix2 (0 : Fin 1) (0 : Fin 1)) :=
    iblk3_apply m c t _ _
      (by show (0 : Nat) = win0_3.index t (0 : Fin 2) * 1 + 0; omega)
      (by show (0 : Nat) = win0_3.index t (1 : Fin 2) * 1 + 0; omega)
  rw [funext b0, funext b1, funext b2, b3]
  rfl

/-- An index of the result is in point `t`'s block iff each coordinate is in the block's range on its axis. -/
theorem mem_blk (t : Fin cfg0.N) (i : S16384x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v16).slice (win0_4.rect t)).set ↔ _
  rw [View.set_slice_whole, Rect.mem_set_unit]
  exact Iff.rfl

/-- The sixty-four blocks tile the result: the block covering row r, column n is (r / 1024, n / 1024). -/
theorem cover (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- So the result array after the region is the one whole-array function of what the region read. -/
theorem final (c : Dev nD) :
    (dats m 0 c).arrAt 4 cfg0.N = whole (V m c main_v0) (V m c main_v13) (V m c main_v15) (V m c main_v14) :=
  (dats m 0 c).arrAt_eq_of_cover 4 _ (fun t _ => flushed_eq m c t) cover

end Cert.KernelIdeal.Blocks

end
-- ==== Proof.HostSide.lean ====
/-
  Around the region. Before it, the program flattens the activations to 16384 rows, computes the
  weights' mean absolute entry and the ternary weights (the very operations the reference applies to
  the weights), and views the gains as one row and the weights' scale as a 1 × 1 matrix; after it, the
  16384 × 4096 result is viewed as 4 × 4096 × 4096. Row b·4096 + s of the flattened activations is row
  (b, s) of the activations, and entry (b, s, n) of the reshaped result is entry (b·4096 + s, n) of the
  region's result: so the program's result is the layer of the three inputs.
-/
import proofs.«112438_j84679575208073_2_alg».proof.Proof.Gen.KernelIdeal.Frame
import proofs.«112438_j84679575208073_2_alg».proof.Proof.KernelValue
import proofs.«112438_j84679575208073_2_alg».proof.Proof.RefValue
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostSide

open Cert.KernelIdeal Cert.KernelIdeal.Gen Cert.KernelIdeal.Blocks Cert.BitLinear
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## What the region finds in the four arrays it reads -/

/-- The activations, flattened to 16384 rows. -/
theorem V_v0 (c : Dev nD) : (V m c main_v0 : S16384x1024.Idx → EReal)
    = shapeCast S16384x1024 (m ((c.tc : Thread nD τ).loc main_arg0) : S4x4096x1024.Idx → EReal)
        Gen.shapeCasts_S4x4096x1024_S16384x1024 := by
  show StableHlo.after hostOps0 (fun b => m (c, b)) (Proc.devRef .tc main_v0) = _
  after_results
  rfl

/-- The gains, as one row. -/
theorem V_v15 (c : Dev nD) : (V m c main_v15 : S1x1024.Idx → EReal)
    = shapeCast S1x1024 (m ((c.tc : Thread nD τ).loc main_arg2) : S1024.Idx → EReal) Gen.shapeCasts_S1024_S1x1024 := by
  show StableHlo.after hostOps0 (fun b => m (c, b)) (Proc.devRef .tc main_v15) = _
  after_results
  rfl

/-- The weights' mean absolute entry, as a 1 × 1 matrix: the reference's own operations on the weights. -/
theorem V_v14 (c : Dev nD) : (V m c main_v14 : S1x1.Idx → EReal)
    = shapeCast S1x1 (Cert.ReferenceIdeal.Read.val_main_v28 (F := Ideal) (m ((c.tc : Thread nD τ).loc main_arg1)))
        Gen.shapeCasts_S_S1x1 := by
  show StableHlo.after hostOps0 (fun b => m (c, b)) (Proc.devRef .tc main_v14) = _
  after_results
  rfl

/-- The ternary weights: the reference's own operations on the weights (the change of format is the identity). -/
theorem V_v13 (c : Dev nD) : (V m c main_v13 : S4096x1024.Idx → EReal)
    = Cert.ReferenceIdeal.Read.val_main_v37 (F := Ideal) (m ((c.tc : Thread nD τ).loc main_arg1)) := by
  show StableHlo.after hostOps0 (fun b => m (c, b)) (Proc.devRef .tc main_v13) = _
  after_results
  rfl

/-! ## Rows of the flattened arrays -/

/-- Row b·4096 + s of the flattened activations is row (b, s). -/
theorem flat_apply (x : FVec Ideal S4x4096x1024 .f32) (h : S4x4096x1024.ShapeCasts S16384x1024)
    (b : Fin 4) (s : Fin 4096) (k : Fin 1024) (r : Fin 16384) (hr : r.val = b.val * 4096 + s.val) :
    shapeCast S16384x1024 x h (ix2 r k) = x (ix3 b s k) :=
  shapeCast_apply x h _ _ (by
    rw [Shape.rowMajor_val_three, Shape.rowMajor_val_two]
    show (b.val * 4096 + s.val) * 1024 + k.val = r.val * 1024 + k.val
    rw [hr])

/-- Entry (b, s, n) of the reshaped result is entry (b·4096 + s, n). -/
theorem unflat_apply (y : FVec Ideal S16384x4096 .f32) (h : S16384x4096.ShapeCasts S4x4096x4096)
    (b : Fin 4) (s : Fin 4096) (n : Fin 4096) (r : Fin 16384) (hr : r.val = b.val * 4096 + s.val) :
    shapeCast S4x4096x4096 y h (ix3 b s n) = y (ix2 r n) :=
  shapeCast_apply y h _ _ (by
    rw [Shape.rowMajor_val_three, Shape.rowMajor_val_two]
    show r.val * 4096 + n.val = (b.val * 4096 + s.val) * 4096 + n.val
    rw [hr])

/-! ## The program's result -/

/-- Entry (b, s, n) of the reshaped region result, in the three inputs. -/
theorem kernel_at (c : Dev nD) (b : Fin 4) (s : Fin 4096) (n : Fin 4096) :
    shapeCast S4x4096x4096 (whole (V m c main_v0) (V m c main_v13) (V m c main_v15) (V m c main_v14))
        Gen.shapeCasts_S16384x4096_S4x4096x4096 (ix3 b s n)
      = rowOut (fun k => (m ((c.tc : Thread nD τ).loc main_arg0) : S4x4096x1024.Idx → EReal) (ix3 b s k))
          (fun k => (m ((c.tc : Thread nD τ).loc main_arg2) : S1024.Idx → EReal) (ix1 k))
          (fun k => wTern (m ((c.tc : Thread nD τ).loc main_arg1)) (ix2 n k))
          (wMean (m ((c.tc : Thread nD τ).loc main_arg1))) := by
  have hb := b.isLt
  have hs := s.isLt
  have hr : b.val * 4096 + s.val < 16384 := by omega
  rw [unflat_apply _ _ b s n ⟨b.val * 4096 + s.val, hr⟩ rfl]
  show rowOut (fun k => (V m c main_v0 : S16384x1024.Idx → EReal) (ix2 (⟨b.val * 4096 + s.val, hr⟩ : Fin 16384) k))
      (fun k => (V m c main_v15 : S1x1024.Idx → EReal) (ix2 (0 : Fin 1) k))
      (fun k => (V m c main_v13 : S4096x1024.Idx → EReal) (ix2 n k))
      ((V m c main_v14 : S1x1.Idx → EReal) (ix2 (0 : Fin 1) (0 : Fin 1))) = _
  have a0 : (fun k : Fin 1024 => (V m c main_v0 : S16384x1024.Idx → EReal) (ix2 (⟨b.val * 4096 + s.val, hr⟩ : Fin 16384) k))
      = fun k => (m ((c.tc : Thread nD τ).loc main_arg0) : S4x4096x1024.Idx → EReal) (ix3 b s k) :=
    funext fun k => by rw [V_v0]; exact flat_apply _ _ b s k _ rfl
  have a2 : (fun k : Fin 1024 => (V m c main_v15 : S1x1024.Idx → EReal) (ix2 (0 : Fin 1) k))
      = fun k => (m ((c.tc : Thread nD τ).loc main_arg2) : S1024.Idx → EReal) (ix1 k) :=
    funext fun k => by rw [V_v15]; exact shapeCast_a_1a_apply _ _ 0 k
  have a1 : (fun k : Fin 1024 => (V m c main_v13 : S4096x1024.Idx → EReal) (ix2 n k))
      = fun k => wTern (m ((c.tc : Thread nD τ).loc main_arg1)) (ix2 n k) :=
    funext fun k => by rw [V_v13]; exact Cert.ReferenceIdeal.RefValue.wtern_eq _ _
  have a3 : (V m c main_v14 : S1x1.Idx → EReal) (ix2 (0 : Fin 1) (0 : Fin 1)) = wMean (m ((c.tc : Thread nD τ).loc main_arg1)) := by
    rw [V_v14]; unfold shapeCast; exact Cert.ReferenceIdeal.RefValue.wmean_eq _ _
  rw [a0, a2, a1, a3]

/-- The reshaped region result is the layer of the three inputs. -/
theorem kernel_layer (c : Dev nD) :
    shapeCast S4x4096x4096 (whole (V m c main_v0) (V m c main_v13) (V m c main_v15) (V m c main_v14))
        Gen.shapeCasts_S16384x4096_S4x4096x4096
      = Cert.ReferenceIdeal.RefValue.layer (m ((c.tc : Thread nD τ).loc main_arg0)) (m ((c.tc : Thread nD τ).loc main_arg1))
          (m ((c.tc : Thread nD τ).loc main_arg2)) :=
  Cert.ReferenceIdeal.RefValue.eq_layer_of_apply _ _ _ _ (kernel_at m c)

/-- What the one operation after the region leaves in the result buffer: the region's result array, reshaped. -/
theorem tail_v17 (c : Dev nD) :
    (Pipeline.afterTail₀ cfgs (dats m) 0 (V0 m) [hostOps1] c main_v17 : S4x4096x4096.Idx → EReal)
      = shapeCast S4x4096x4096 ((dats m 0 c).arrAt 4 cfg0.N : S16384x4096.Idx → EReal) Gen.shapeCasts_S16384x4096_S4x4096x4096 := by
  unfold Pipeline.afterTail₀
  show StableHlo.after hostOps1 _ (Proc.devRef .tc main_v17) = _
  after_results
  have hw : Pipeline.withArrays (cfgs 0).spec c (V0 m c) (fun w => (dats m 0 c).arrAt w (cfgs 0).N) (Proc.devRef .tc main_v16)
      = (dats m 0 c).arrAt 4 cfg0.N :=
    Pipeline.withArrays_arr spec0 launch0.win.arr_inj c _ _ 4
  rw [hw]
  rfl

/-- The run, read: every weakly fair execution terminates with the result buffer at the layer of the inputs,
    the inputs unchanged. -/
theorem run : θ_run defs (onTc (τ := τ) (main (F := Ideal))) ⟨m, fun _ => 0, ρ⟩ (fun r => ∀ c : Dev nD,
      r.2.mem ((c.tc : Thread nD τ).loc main_v17)
        = Cert.ReferenceIdeal.RefValue.layer (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v17 (Pipeline.mem_restRefs_of main_v17 (by decide) (by decide))).trans
        ((tail_v17 m c).trans ((congrArg (fun A => shapeCast S4x4096x4096 (A : S16384x4096.Idx → EReal)
          Gen.shapeCasts_S16384x4096_S4x4096x4096) (Blocks.final m c)).trans (kernel_layer m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.HostSide

end
-- ==== Proof.lean ====
/-
  The quantized linear layer: a fused kernel against its array-level reference, over the extended reals.

  Both programs normalize each row of the activations by the reciprocal root of its mean square, scale it
  by the gains, quantize it to integers in [-128, 127] by the row's largest absolute entry, replace the
  weights by their signs where they exceed half the mean absolute weight, contract, and rescale. The
  kernel does this block by block on a 16 × 4 grid over the flattened activations; the reference does it
  on whole arrays, writing the quantized values as (quantized − x) + x and multiplying by the product of
  the two scales at once. Under finite inputs the subtracted-and-added quantities are reals, so they
  cancel; multiplication of extended reals is associative; sums may be taken in any order. So the two
  results are one function of the inputs (`layer`), entry by entry.
-/
import proofs.«112438_j84679575208073_2_alg».proof.Defs
import proofs.«112438_j84679575208073_2_alg».proof.Proof.Gen.Kernel
import proofs.«112438_j84679575208073_2_alg».proof.Proof.Gen.Kernel.Skeleton
import proofs.«112438_j84679575208073_2_alg».proof.Proof.Gen.Kernel.Launch
import proofs.«112438_j84679575208073_2_alg».proof.Proof.Gen.Kernel.Points
import proofs.«112438_j84679575208073_2_alg».proof.Proof.Gen.Kernel.Frame
import proofs.«112438_j84679575208073_2_alg».proof.Proof.Gen.KernelIdeal
import proofs.«112438_j84679575208073_2_alg».proof.Proof.Gen.KernelIdeal.Skeleton
import proofs.«112438_j84679575208073_2_alg».proof.Proof.Gen.KernelIdeal.Launch
import proofs.«112438_j84679575208073_2_alg».proof.Proof.Gen.KernelIdeal.Points
import proofs.«112438_j84679575208073_2_alg».proof.Proof.Gen.KernelIdeal.Frame
import proofs.«112438_j84679575208073_2_alg».proof.Proof.Gen.ReferenceIdeal
import proofs.«112438_j84679575208073_2_alg».proof.Proof.Gen.Pre_finite_inputs
import proofs.«112438_j84679575208073_2_alg».proof.Proof.Gen.ReferenceIdeal.Run
import proofs.«112438_j84679575208073_2_alg».proof.Proof.Gen.ReferenceIdeal.Read
import proofs.«112438_j84679575208073_2_alg».proof.Proof.Finite
import proofs.«112438_j84679575208073_2_alg».proof.Proof.RefValue
import proofs.«112438_j84679575208073_2_alg».proof.Proof.HostSide
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote nothing. -/
theorem preserves : Cert.preserves_Kernel_KernelIdeal := trivial

/-- From memories that agree on finite inputs, both programs end with the layer of the inputs in their result. -/
theorem algebraic : Cert.algebraic_KernelIdeal_ReferenceIdeal := by
  intro m ρ m' ρ' hpre hagree
  refine ⟨fun c => Cert.ReferenceIdeal.RefValue.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.HostSide.run m ρ, ?_⟩
  refine (θ_run Cert.ReferenceIdeal.defs _ _).mono (fun _ h c => ⟨?_, (h c).2⟩)
    (Cert.ReferenceIdeal.Value.run (F := Ideal) m' ρ')
  obtain ⟨hX, hW, hG⟩ := Cert.Finite.real_of_pre _ _ _ (hpre c)
  rw [(h c).1, Cert.ReferenceIdeal.Read.val_main_v44_eq, (hagree c).1, (hagree c).2.1, (hagree c).2.2]
  exact Cert.ReferenceIdeal.RefValue.ref_layer _ _ _ hX hW hG

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
